-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x32 : Shape := ⟨2, ![1600000, 32]⟩
abbrev S128x160 : Shape := ⟨2, ![128, 160]⟩
abbrev S128 : Shape := ⟨1, ![128]⟩
abbrev S128x256 : Shape := ⟨2, ![128, 256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S128x160 : S_.BroadcastsInDim S128x160 (![] : Fin 0 → Fin S128x160.rank)
  reducesTo_S128x160_S_d0_1 : S128x160.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_

variable [Facts]

def fn_part1 {F : FTy → Type} [FloatOps F] (main_arg5 : FVec F S128x256 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000x32 .f32) (main_arg3 : FVec F S128x160 .f32) (main_arg4 : FVec F S128 .f32) (main_arg5 : FVec F S128x256 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x32 .f32 := Host.absf main_arg2
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S128x160 .f32 := Host.absf main_arg3
  let main_cst_2 : FVec F S_ .f32 := constant S_ .f32 0x7F800000#32
  let main_v10 : FVec F S128x160 .f32 := broadcastInDim S128x160 ![] bcast_S_S128x160 main_cst_2
  let main_v11 : IVec S128x160 1 := cmpf .olt main_v9 main_v10
  let main_c_3 : IVec S_ 1 := constantI S_ 1 1#1
  let main_v12 : IVec S_ 1 := (fun x v => Host.reduce IntOp.andi x v reducesTo_S128x160_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000x32 : Shape := ⟨2, ![1600000, 32]⟩
abbrev S128x160 : Shape := ⟨2, ![128, 160]⟩
abbrev S128 : Shape := ⟨1, ![128]⟩
abbrev S128x256 : Shape := ⟨2, ![128, 256]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S128x128 : Shape := ⟨2, ![128, 128]⟩
abbrev S128x32 : Shape := ⟨2, ![128, 32]⟩
abbrev S32x128 : Shape := ⟨2, ![32, 128]⟩
abbrev S8000x128 : Shape := ⟨2, ![8000, 128]⟩
abbrev S8000x32 : Shape := ⟨2, ![8000, 32]⟩
abbrev S1x128 : Shape := ⟨2, ![1, 128]⟩
abbrev S5000x128 : Shape := ⟨2, ![5000, 128]⟩

abbrev nBuf : Space → Nat
  | .hbm => 34
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x32, .f32⟩
  | .hbm, ⟨3, _⟩ => ⟨S128x160, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S128x128, .f32⟩
  | .hbm, ⟨21, _⟩ => ⟨S128x128, .f32⟩
  | .hbm, ⟨22, _⟩ => ⟨S128x32, .f32⟩
  | .hbm, ⟨23, _⟩ => ⟨S32x128, .f32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S128x128, .f32⟩
  | .hbm, ⟨30, _⟩ => ⟨S128x128, .f32⟩
  | .hbm, ⟨31, _⟩ => ⟨S128x128, .f32⟩
  | .hbm, ⟨32, _⟩ => ⟨S128x128, .f32⟩
  | .hbm, ⟨33, _⟩ => ⟨S100000x128, .f32⟩
  | .local _ .vmem, ⟨0, _⟩ => ⟨S8000x128, .f32⟩
  | .local _ .vmem, ⟨1, _⟩ => ⟨S8000x128, .f32⟩
  | .local _ .vmem, ⟨2, _⟩ => ⟨S8000x32, .f32⟩
  | .local _ .vmem, ⟨3, _⟩ => ⟨S8000x32, .f32⟩
  | .local _ .vmem, ⟨4, _⟩ => ⟨S128x128, .f32⟩
  | .local _ .vmem, ⟨5, _⟩ => ⟨S32x128, .f32⟩
  | .local _ .vmem, ⟨6, _⟩ => ⟨S128, .f32⟩
  | .local _ .vmem, ⟨7, _⟩ => ⟨S8000x128, .f32⟩
  | .local _ .vmem, ⟨8, _⟩ => ⟨S8000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S128x160_S128x128_0_0 : S128x160.Slices ![0, 0] S128x128
  transposes_S128x128_S128x128_1_0 : S128x128.Transposes [1, 0] S128x128
  slices_S128x160_S128x32_0_128 : S128x160.Slices ![0, 128] S128x32
  transposes_S128x32_S32x128_1_0 : S128x32.Transposes [1, 0] S32x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bitsLt_bf16_f32 : FTy.bits .bf16 < FTy.bits .f32
  inb_S8000x32_S8000x32_0_0 : ∀ a, (![0, 0] : Fin 2 → Nat) a + S8000x32.size a ≤ S8000x32.size a
  h_S8000x32 : 0 < S8000x32.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S128_S128_0 : ∀ a, (![0] : Fin 1 → Nat) a + S128.size a ≤ S128.size a
  h_S128 : 0 < S128.numel
  shapeCasts_S128_S1x128 : S128.ShapeCasts S1x128
  broadcasts_S1x128_S8000x128 : S1x128.Broadcasts S8000x128
  bcast_S_S100000x128 : S_.BroadcastsInDim S100000x128 (![] : Fin 0 → Fin S100000x128.rank)
  slices_S128x256_S128x128_0_0 : S128x256.Slices ![0, 0] S128x128
  slices_S128x256_S128x128_0_128 : S128x256.Slices ![0, 128] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  dot_S8000x128_S128x128_S8000x128_1_0_0_1_n_n_wf : DotDims.WF S8000x128 S128x128 S8000x128 [1] [0] [0] [1] [] []
  dot_S8000x32_S32x128_S8000x128_1_0_0_1_n_n_wf : DotDims.WF S8000x32 S32x128 S8000x128 [1] [0] [0] [1] [] []
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S1600000x128.size a
  hwx0_0 : ∀ i : grid0.Coords, EltTy.bits .f32 = 32 ∨ (Rect.block (s := S1600000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x32.size a ≤ S1600000x32.size a
  hwx0_1 : ∀ i : grid0.Coords, EltTy.bits .f32 = 32 ∨ (Rect.block (s := S1600000x32) S8000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x128.size a
  hwx0_3 : ∀ i : grid0.Coords, EltTy.bits .f32 = 32 ∨ (Rect.block (s := S32x128) S32x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x128.size a ≤ S1600000x128.size a
  hwx0_5 : ∀ i : grid0.Coords, EltTy.bits .f32 = 32 ∨ (Rect.block (s := S1600000x128) S8000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x32_S32x128_S8000x128_1_0_0_1_n_n : DotDims S8000x32 S32x128 S8000x128 where
  lhsContracting := [1]
  rhsContracting := [0]
  lhsNonContracting := [0]
  rhsNonContracting := [1]
  lhsBatch := []
  rhsBatch := []
  wf := dot_S8000x32_S32x128_S8000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v10) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S32x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S8000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x32 : Shape := ⟨2, ![1600000, 32]⟩
abbrev S128x160 : Shape := ⟨2, ![128, 160]⟩
abbrev S128 : Shape := ⟨1, ![128]⟩
abbrev S128x256 : Shape := ⟨2, ![128, 256]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1600000x160 : Shape := ⟨2, ![1600000, 160]⟩
abbrev S160x128 : Shape := ⟨2, ![160, 128]⟩
abbrev S1x128 : Shape := ⟨2, ![1, 128]⟩
abbrev S100000x256 : Shape := ⟨2, ![100000, 256]⟩
abbrev S256x128 : Shape := ⟨2, ![256, 128]⟩

abbrev nBuf : Space → Nat
  | .hbm => 42
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x32, .f32⟩
  | .hbm, ⟨3, _⟩ => ⟨S128x160, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S1600000x160, .f32⟩
  | .hbm, ⟨21, _⟩ => ⟨S160x128, .f32⟩
  | .hbm, ⟨22, _⟩ => ⟨S1600000x128, .f32⟩
  | .hbm, ⟨23, _⟩ => ⟨S1x128, .f32⟩
  | .hbm, ⟨24, _⟩ => ⟨S1600000x128, .f32⟩
  | .hbm, ⟨25, _⟩ => ⟨S1600000x128, .f32⟩
  | .hbm, ⟨26, _⟩ => ⟨S_, .f32⟩
  | .hbm, ⟨27, _⟩ => ⟨S1600000x128, .f32⟩
  | .hbm, ⟨28, _⟩ => ⟨S1600000x128, .f32⟩
  | .hbm, ⟨29, _⟩ => ⟨S_, .f32⟩
  | .hbm, ⟨30, _⟩ => ⟨S100000x128, .f32⟩
  | .hbm, ⟨31, _⟩ => ⟨S1600000x1, .i32⟩
  | .hbm, ⟨32, _⟩ => ⟨S100000x128, .f32⟩
  | .hbm, ⟨33, _⟩ => ⟨S100000x256, .f32⟩
  | .hbm, ⟨34, _⟩ => ⟨S256x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S_, .f32⟩
  | .hbm, ⟨40, _⟩ => ⟨S100000x128, .f32⟩
  | .hbm, ⟨41, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call1_cst : Ref sig .tc := ⟨.hbm, 39, rfl⟩
abbrev main_call1_v0 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x128_S1600000x32_S1600000x160_d1 : Shape.Concatenates [S1600000x128, S1600000x32] S1600000x160 1
  transposes_S128x160_S160x128_1_0 : S128x160.Transposes [1, 0] S160x128
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  concatenates_S100000x128_S100000x128_S100000x256_d1 : Shape.Concatenates [S100000x128, S100000x128] S100000x256 1
  transposes_S128x256_S256x128_1_0 : S128x256.Transposes [1, 0] S256x128
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  dot_S1600000x160_S160x128_S1600000x128_1_0_0_1_n_n_wf : DotDims.WF S1600000x160 S160x128 S1600000x128 [1] [0] [0] [1] [] []
  scatter_S100000x128_S1600000x1_S1600000x128_1_0_0_1_wf : ScatterDims.WF S100000x128 S1600000x1 S1600000x128 [1] [0] [0] 1
  dot_S100000x256_S256x128_S100000x128_1_0_0_1_n_n_wf : DotDims.WF S100000x256 S256x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S1600000x160_S160x128_S1600000x128_1_0_0_1_n_n : DotDims S1600000x160 S160x128 S1600000x128 where
  lhsContracting := [1]
  rhsContracting := [0]
  lhsNonContracting := [0]
  rhsNonContracting := [1]
  lhsBatch := []
  rhsBatch := []
  wf := dot_S1600000x160_S160x128_S1600000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.KernelRun.lean ====
/-
  The idealized kernel's run with its result named. The program is two grid launches among three stretches of host
  operations; its run passes through five boundaries, and at the last one every unscoped buffer of the TensorCore holds
  the fold of the whole program over the launch memory. The frame claim keeps of that fold only the seven argument
  arrays; here the same run is read at the result array as well: it ends holding what the second launch's write-backs
  leave in it.
-/
import proofs.«155092_j70231305224638_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and the arguments as launched. -/
theorem run : θ_run defs (onTc (τ := τ) (main (F := F))) ⟨m, fun _ => 0, ρ⟩ (fun r => ∀ c : Dev nD,
      r.2.mem ((c.tc : Thread nD τ).loc main_v23) = W4 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v23 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Named

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibAffine.lean ====
/-
  Rows times weights plus a bias row, over the extended reals, in its two spellings. A row-tiled kernel computes, for a block
  `x` of rows, `matmul (bf16 x) w 0 + broadcast b`: the rounding of the left operand to bf16 is the identity on the extended
  reals, the matrix unit's product into a zero accumulator is the finite sum over the contracted coordinate, and the bias row
  `[1, M]` is repeated down the rows. The host computes `dot_general X W + broadcast (broadcast b)` with `b` of shape `[M]`
  lifted to `[1, M]` and then to `[A, M]`. Entry `(r, j)` of either is `Σ_k X(r,k)·W(k,j) + b(j)`.
-/
import Idealize.ShloMosaic.PureOps.Ideal.Laws
import Idealize.ShloMosaic.Lib.ValueIdx
import Idealize.ShloMosaic.Lib.ValueLayout
import Idealize.ShloMosaic.Lib.Pipeline.Value
import proofs.«155092_j70231305224638_1_alg».proof.Proof.LibPlainDot

namespace Idealize.ShloMosaic.Affine

open Idealize.ShloMosaic.ValueIdx

variable {A K M : Nat}

/-- Rows times weights plus the bias row: entry `(r, j)` is `Σ_k X(r,k)·W(k,j) + b(0,j)`. -/
noncomputable def affine {φw : FTy} (X : FVec Ideal ⟨2, ![A, K]⟩ .f32) (W : FVec Ideal ⟨2, ![K, M]⟩ φw) (b : FVec Ideal ⟨2, ![1, M]⟩ .f32) :
    FVec Ideal ⟨2, ![A, M]⟩ .f32 :=
  fun i => (∑ k : Fin K, X (ix2 ⟨(i 0).val, idx2_lt0 i⟩ k) * W (ix2 k ⟨(i 1).val, idx2_lt1 i⟩))
    + b (ix2 (0 : Fin 1) ⟨(i 1).val, idx2_lt1 i⟩)

theorem affine_ix2 {φw : FTy} (X : FVec Ideal ⟨2, ![A, K]⟩ .f32) (W : FVec Ideal ⟨2, ![K, M]⟩ φw) (b : FVec Ideal ⟨2, ![1, M]⟩ .f32)
    (p : Fin A) (q : Fin M) :
    affine X W b (ix2 p q) = (∑ k : Fin K, X (ix2 p k) * W (ix2 k q)) + b (ix2 (0 : Fin 1) q) := rfl

/-- The kernel body's value at row `p`, column `q` of its block. -/
theorem body_apply {φw : FTy} (prec : Option ContractPrecision) (x0 : FVec Ideal ⟨2, ![A, K]⟩ .f32) (x1 : FVec Ideal ⟨2, ![K, M]⟩ φw)
    (x2 : FVec Ideal ⟨2, ![1, M]⟩ .f32) (ht : FTy.bf16.bits < FTy.f32.bits)
    (hb : (⟨2, ![1, M]⟩ : Shape).Broadcasts ⟨2, ![A, M]⟩) (p : Fin A) (q : Fin M) :
    addf (FloatOps.matmul (DotDims.plain A K M) prec (truncf .bf16 x0 ht) x1 (constant ⟨2, ![A, M]⟩ .f32 0x00000000#32))
        (broadcastTo ⟨2, ![A, M]⟩ x2 hb) (ix2 p q)
      = affine x0 x1 x2 (ix2 p q) := by
  rw [affine_ix2]
  refine (addf_apply _ _ _).trans ?_
  refine congrArg₂ (· + ·) ?_ ?_
  · exact PlainDot.matmul_apply_ix2 prec (truncf .bf16 x0 ht) x1 p q
  · exact broadcastTo_1b_ab_apply x2 hb p q

/-- A bias `[M]` lifted to `[1, M]` and then to `[A, M]`, at `(p, q)`: its entry `q`. -/
theorem bias_rows_apply (b : FVec Ideal ⟨1, ![M]⟩ .f32) (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    broadcastInDim ⟨2, ![A, M]⟩ ![0, 1] h2 (broadcastInDim ⟨2, ![1, M]⟩ ![1] h1 b) (ix2 p q) = b (ix1 q) := by
  have hq := q.isLt
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if M = 1 then 0 else q.val
      split
      · omega
      · rfl
  · match a with
    | ⟨0, _⟩ =>
      show q.val = if M = 1 then 0 else q.val
      split
      · omega
      · rfl

/-- The host's spelling at `(p, q)`. -/
theorem host_apply (prec : Option ContractPrecision) (sched : HostSchedule) (X : FVec Ideal ⟨2, ![A, K]⟩ .f32)
    (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    addf (FloatOps.dotGeneral (DotDims.plain A K M) prec sched X W)
        (broadcastInDim ⟨2, ![A, M]⟩ ![0, 1] h2 (broadcastInDim ⟨2, ![1, M]⟩ ![1] h1 b)) (ix2 p q)
      = (∑ k : Fin K, X (ix2 p k) * W (ix2 k q)) + b (ix1 q) := by
  refine (addf_apply _ _ _).trans ?_
  refine congrArg₂ (· + ·) ?_ ?_
  · exact PlainDot.dotGeneral_apply_ix2 prec sched X W p q
  · exact bias_rows_apply b h1 h2 p q

/-- The two spellings agree: the kernel's weights are the host's rounded to bf16 (the identity here) and its bias row the
    host's bias recast to `[1, M]`. -/
theorem affine_eq_host (prec : Option ContractPrecision) (sched : HostSchedule) (X : FVec Ideal ⟨2, ![A, K]⟩ .f32)
    (W : FVec Ideal ⟨2, ![K, M]⟩ .f32) (b : FVec Ideal ⟨1, ![M]⟩ .f32) (ht : FTy.bf16.bits < FTy.f32.bits)
    (hc : (⟨1, ![M]⟩ : Shape).ShapeCasts ⟨2, ![1, M]⟩)
    (h1 : (⟨1, ![M]⟩ : Shape).BroadcastsInDim ⟨2, ![1, M]⟩ ![1])
    (h2 : (⟨2, ![1, M]⟩ : Shape).BroadcastsInDim ⟨2, ![A, M]⟩ ![0, 1]) :
    affine X (truncf .bf16 W ht) (shapeCast ⟨2, ![1, M]⟩ b hc)
      = addf (FloatOps.dotGeneral (DotDims.plain A K M) prec sched X W)
          (broadcastInDim ⟨2, ![A, M]⟩ ![0, 1] h2 (broadcastInDim ⟨2, ![1, M]⟩ ![1] h1 b)) := by
  funext i
  obtain ⟨p, q, rfl⟩ : ∃ (p : Fin A) (q : Fin M), i = ix2 p q := ⟨i 0, i 1, eq_ix2 i⟩
  rw [host_apply, affine_ix2, shapeCast_a_1a_apply]
  rfl

end Idealize.ShloMosaic.Affine
-- ==== Proof.LibSplitLayer.lean ====
/-
  A linear layer applied to rows that come in two parts, followed by the rectifier, over the extended reals, in its two
  spellings. A row-tiled kernel holds the weight matrix `W` (one row per output feature, `K₁ + K₂` columns) as two
  transposed column ranges `W₁ = (W[:, :K₁])ᵀ` and `W₂ = (W[:, K₁:])ᵀ`, multiplies each part of the row block by its range on
  the matrix unit (the rounding of the operands to bf16 is the identity on the extended reals, and a product into the zero
  accumulator is the finite sum over the contracted coordinate), adds the two products, adds the bias row and takes the
  maximum with zero. The host lays the two parts side by side, multiplies the `K₁ + K₂`-wide rows by `Wᵀ` in one
  `dot_general`, adds the bias lifted twice and takes the maximum with a broadcast zero. Entry `(r, j)` of either is
    max (Σ_{k < K₁} X₁(r,k)·W(j,k) + Σ_{k < K₂} X₂(r,k)·W(j,K₁+k) + b(j)) 0 :
  a sum over `Fin (K₁ + K₂)` is the sum over its first `K₁` positions plus the sum over the remaining `K₂`, which holds
  in every commutative additive monoid, so nothing here asks the entries to be finite.
-/
import Idealize.ShloMosaic.PureOps.Ideal.Laws
import Idealize.ShloMosaic.Lib.ValueIdx
import Idealize.ShloMosaic.Lib.ValueLayout
import Idealize.ShloMosaic.Lib.Pipeline.Value
import proofs.«155092_j70231305224638_1_alg».proof.Proof.LibPlainDot
import proofs.«155092_j70231305224638_1_alg».proof.Proof.LibAffine

namespace Idealize.ShloMosaic.SplitLayer

open Idealize.ShloMosaic.ValueIdx

variable {A K₁ K₂ K M : Nat}

/-- The layer on rows in two parts with the weights in two transposed ranges: entry `(r, j)` is
    `max (Σ_k X₁(r,k)·W₁(k,j) + Σ_k X₂(r,k)·W₂(k,j) + b(j)) 0`. -/
noncomputable def layer (X₁ : FVec Ideal ⟨2, ![A, K₁]⟩ .f32) (X₂ : FVec Ideal ⟨2, ![A, K₂]⟩ .f32)
    (W₁ : FVec Ideal ⟨2, ![K₁, M]⟩ .f32) (W₂ : FVec Ideal ⟨2, ![K₂, M]⟩ .f32) (b : FVec Ideal ⟨1, ![M]⟩ .f32) :
    FVec Ideal ⟨2, ![A, M]⟩ .f32 :=
  fun i => max (((∑ k : Fin K₁, X₁ (ix2 ⟨(i 0).val, idx2_lt0 i⟩ k) * W₁ (ix2 k ⟨(i 1).val, idx2_lt1 i⟩))
      + (∑ k : Fin K₂, X₂ (ix2 ⟨(i 0).val, idx2_lt0 i⟩ k) * W₂ (ix2 k ⟨(i 1).val, idx2_lt1 i⟩)))
      + b (ix1 ⟨(i 1).val, idx2_lt1 i⟩)) (Ideal.ofBits .f32 0x00000000#32)

theorem layer_ix2 (X₁ : FVec Ideal ⟨2, ![A, K₁]⟩ .f32) (X₂ : FVec Ideal ⟨2, ![A, K₂]⟩ .f32)
    (W₁ : FVec Ideal ⟨2, ![K₁, M]⟩ .f32) (W₂ : FVec Ideal ⟨2, ![K₂, M]⟩ .f32) (b : FVec Ideal ⟨1, ![M]⟩ .f32)
    (p : Fin A) (q : Fin M) :
    layer X₁ X₂ W₁ W₂ b (ix2 p q)
      = max (((∑ k : Fin K₁, X₁ (ix2 p k) * W₁ (ix2 k q)) + (∑ k : Fin K₂, X₂ (ix2 p k) * W₂ (ix2 k q))) + b (ix1 q))
          (Ideal.ofBits .f32 0x00000000#32) := rfl

/-- An entry of the layer depends on its own row of the two parts, its own column of the two weight ranges and its own
    bias entry only: row `p`, column `q` of the layer on a block of rows is row `r`, column `q` of the layer on whole
    arrays when those five agree. -/
theorem layer_entry_congr {B : Nat} (X₁ : FVec Ideal ⟨2, ![A, K₁]⟩ .f32) (X₂ : FVec Ideal ⟨2, ![A, K₂]⟩ .f32)
    (W₁ : FVec Ideal ⟨2, ![K₁, M]⟩ .f32) (W₂ : FVec Ideal ⟨2, ![K₂, M]⟩ .f32) (b : FVec Ideal ⟨1, ![M]⟩ .f32)
    (x₁ : FVec Ideal ⟨2, ![B, K₁]⟩ .f32) (x₂ : FVec Ideal ⟨2, ![B, K₂]⟩ .f32)
    (w₁ : FVec Ideal ⟨2, ![K₁, M]⟩ .f32) (w₂ : FVec Ideal ⟨2, ![K₂, M]⟩ .f32) (b' : FVec Ideal ⟨1, ![M]⟩ .f32)
    (p : Fin B) (r : Fin A) (q : Fin M)
    (h₁ : ∀ k, x₁ (ix2 p k) = X₁ (ix2 r k)) (h₂ : ∀ k, x₂ (ix2 p k) = X₂ (ix2 r k))
    (h₃ : ∀ k, w₁ (ix2 k q) = W₁ (ix2 k q)) (h₄ : ∀ k, w₂ (ix2 k q) = W₂ (ix2 k q)) (h₅ : b' (ix1 q) = b (ix1 q)) :
    layer x₁ x₂ w₁ w₂ b' (ix2 p q) = layer X₁ X₂ W₁ W₂ b (ix2 r q) := by
  rw [layer_ix2, layer_ix2]
  simp only [h₁, h₂, h₃, h₄, h₅]

/-- The kernel body's value at row `p`, column `q` of its block: two products into zero accumulators added, the bias
    `[M]` recast to a row and repeated down the block, the maximum with a splat zero. -/
theorem body_apply (prec : Option ContractPrecision) (x₁ : FVec Ideal ⟨2, ![A, K₁]⟩ .f32) (x₂ : FVec Ideal ⟨2, ![A, K₂]⟩ .f32)
    (w₁ : FVec Ideal ⟨2, ![K₁, M]⟩ .f32) (w₂ : FVec Ideal ⟨2, ![K₂, M]⟩ .f32) (b : FVec Ideal ⟨1, ![M]⟩ .f32)
    (ht : FTy.bf16.bits < FTy.f32.bits) (hc : (⟨1, ![M]⟩ : Shape).ShapeCasts ⟨2, ![1, M]⟩)
    (hb : (⟨2, ![1, M]⟩ : Shape).Broadcasts ⟨2, ![A, M]⟩) (p : Fin A) (q : Fin M) :
    maximumf
        (addf
          (addf
            (FloatOps.matmul (DotDims.plain A K₁ M) prec (truncf .bf16 x₁ ht) (truncf .bf16 w₁ ht) (constant ⟨2, ![A, M]⟩ .f32 0x00000000#32))
            (FloatOps.matmul (DotDims.plain A K₂ M) prec (truncf .bf16 x₂ ht) (truncf .bf16 w₂ ht) (constant ⟨2, ![A, M]⟩ .f32 0x00000000#32)))
          (broadcastTo ⟨2, ![A, M]⟩ (shapeCast ⟨2, ![1, M]⟩ b hc) hb))
        (broadcast ⟨2, ![A, M]⟩ (Scalar.ofBits (F := Ideal) .f32 0x00000000#32)) (ix2 p q)
      = layer x₁ x₂ w₁ w₂ b (ix2 p q) := by
  rw [layer_ix2]
  refine (maximumf_apply _ _ _).trans (congrArg₂ max ?_ rfl)
  refine (addf_apply _ _ _).trans (congrArg₂ (· + ·) ?_ ?_)
  · refine (addf_apply _ _ _).trans (congrArg₂ (· + ·) ?_ ?_)
    · exact PlainDot.matmul_apply_ix2 prec (truncf .bf16 x₁ ht) (truncf .bf16 w₁ ht) p q
    · exact PlainDot.matmul_apply_ix2 prec (truncf .bf16 x₂ ht) (truncf .bf16 w₂ ht) p q
  · exact (broadcastTo_1b_ab_apply _ hb p q).trans (shapeCast_a_1a_apply b hc 0 q)

/-- Two arrays laid side by side along the columns, read in the first one's columns. -/
theorem concat_cols_left (X₁ : FVec Ideal ⟨2, ![A, K₁]⟩ .f32) (X₂ : FVec Ideal ⟨2, ![A, K₂]⟩ .f32)
    (hcat : Shape.Concatenates [(⟨2, ![A, K₁]⟩ : Shape), ⟨2, ![A, K₂]⟩] ⟨2, ![A, K₁ + K₂]⟩ 1) (p : Fin A) (k : Fin K₁) :
    concatenate ⟨2, ![A, K₁ + K₂]⟩ 1 [⟨⟨2, ![A, K₁]⟩, X₁⟩, ⟨⟨2, ![A, K₂]⟩, X₂⟩] hcat (ix2 p (Fin.castAdd K₂ k)) = X₁ (ix2 p k) :=
  concatenate_pair_apply_left 1 X₁ X₂ hcat (ix2 p (Fin.castAdd K₂ k)) rfl (ix2 p k) fun b =>
    match b with
    | ⟨0, _⟩ => rfl
    | ⟨1, _⟩ => rfl

/-- Two arrays laid side by side along the columns, read in the second one's columns. -/
theorem concat_cols_right (X₁ : FVec Ideal ⟨2, ![A, K₁]⟩ .f32) (X₂ : FVec Ideal ⟨2, ![A, K₂]⟩ .f32)
    (hcat : Shape.Concatenates [(⟨2, ![A, K₁]⟩ : Shape), ⟨2, ![A, K₂]⟩] ⟨2, ![A, K₁ + K₂]⟩ 1) (p : Fin A) (k : Fin K₂) :
    concatenate ⟨2, ![A, K₁ + K₂]⟩ 1 [⟨⟨2, ![A, K₁]⟩, X₁⟩, ⟨⟨2, ![A, K₂]⟩, X₂⟩] hcat (ix2 p (Fin.natAdd K₁ k)) = X₂ (ix2 p k) :=
  concatenate_pair_apply_right 1 X₁ X₂ hcat (ix2 p (Fin.natAdd K₁ k)) rfl rfl (ix2 p k)
    (fun b hb =>
      match b, hb with
      | ⟨0, _⟩, _ => rfl
      | ⟨1, _⟩, hb => absurd rfl hb)
    (show k.val + K₁ = K₁ + k.val from Nat.add_comm _ _)

/-- A matrix transposed, read at `(c, q)`: the matrix at `(q, c)`. -/
theorem transpose_ix2 {R C : Nat} (W : FVec Ideal ⟨2, ![R, C]⟩ .f32) (h : (⟨2, ![R, C]⟩ : Shape).Transposes [1, 0] ⟨2, ![C, R]⟩)
    (c : Fin C) (q : Fin R) : transpose ⟨2, ![C, R]⟩ [1, 0] W h (ix2 c q) = W (ix2 q c) :=
  transpose_apply [1, 0] W h (ix2 c q) (ix2 q c) fun b =>
    match b with
    | ⟨0, _⟩ => rfl
    | ⟨1, _⟩ => rfl

/-- A range of `C'` columns of a matrix starting at column `o`, transposed, read at `(k, q)`: the matrix at `(q, o + k)`. -/
theorem transpose_cols_ix2 {R C C' : Nat} (o : Nat) (W : FVec Ideal ⟨2, ![R, C]⟩ .f32)
    (hs : (⟨2, ![R, C]⟩ : Shape).Slices ![0, o] ⟨2, ![R, C']⟩)
    (h : (⟨2, ![R, C']⟩ : Shape).Transposes [1, 0] ⟨2, ![C', R]⟩) (k : Fin C') (q : Fin R) (hk : o + k.val < C) :
    transpose ⟨2, ![C', R]⟩ [1, 0] (extractStridedSlice ⟨2, ![R, C']⟩ ![0, o] W hs) h (ix2 k q) = W (ix2 q ⟨o + k.val, hk⟩) :=
  (transpose_ix2 _ h k q).trans
    (extractStridedSlice_apply ![0, o] W hs (ix2 q k) (ix2 q ⟨o + k.val, hk⟩) fun a =>
      match a with
      | ⟨0, _⟩ => (Nat.zero_add _).symm
      | ⟨1, _⟩ => rfl)

/-- The host's spelling at `(p, q)`, against the layer on the two transposed column ranges of the weight matrix. -/
theorem host_apply (prec : Option ContractPrecision) (sched : HostSchedule)
    (X₁ : FVec Ideal ⟨2, ![A, K₁]⟩ .f32) (X₂ : FVec Ideal ⟨2, ![A, K₂]⟩ .f32) (W : FVec Ideal ⟨2, ![M, K₁ + K₂]⟩ .f32)
    (b : FVec Ideal ⟨1, ![M]⟩ .f32)
    (hcat : Shape.Concatenates [(⟨2, ![A, K₁]⟩ : Shape), ⟨2, ![A, K₂]⟩] ⟨2, ![A, K₁ + K₂]⟩ 1)
    (htr : (⟨2, ![M, K₁ + K₂]⟩ : Shape).Transposes [1, 0] ⟨2, ![K₁ + K₂, M]⟩)
    (hs₁ : (⟨2, ![M, K₁ + K₂]⟩ : Shape).Slices ![0, 0] ⟨2, ![M, K₁]⟩)
    (ht₁ : (⟨2, ![M, K₁]⟩ : Shape).Transposes [1, 0] ⟨2, ![K₁, M]⟩)
    (hs₂ : (⟨2, ![M, K₁ + K₂]⟩ : Shape).Slices ![0, K₁] ⟨2, ![M, K₂]⟩)
    (ht₂ : (⟨2, ![M, K₂]⟩ : Shape).Transposes [1, 0] ⟨2, ![K₂, M]⟩)
    (h1 : (⟨1, ![M]⟩ : Shape).BroadcastsInDim ⟨2, ![1, M]⟩ ![1])
    (h2 : (⟨2, ![1, M]⟩ : Shape).BroadcastsInDim ⟨2, ![A, M]⟩ ![0, 1])
    (h0 : (⟨0, ![]⟩ : Shape).BroadcastsInDim ⟨2, ![A, M]⟩ ![]) (p : Fin A) (q : Fin M) :
    maximumf
        (addf
          (FloatOps.dotGeneral (DotDims.plain A (K₁ + K₂) M) prec sched
            (concatenate ⟨2, ![A, K₁ + K₂]⟩ 1 [⟨⟨2, ![A, K₁]⟩, X₁⟩, ⟨⟨2, ![A, K₂]⟩, X₂⟩] hcat)
            (transpose ⟨2, ![K₁ + K₂, M]⟩ [1, 0] W htr))
          (broadcastInDim ⟨2, ![A, M]⟩ ![0, 1] h2 (broadcastInDim ⟨2, ![1, M]⟩ ![1] h1 b)))
        (broadcastInDim ⟨2, ![A, M]⟩ ![] h0 (constant (F := Ideal) ⟨0, ![]⟩ .f32 0x00000000#32)) (ix2 p q)
      = layer X₁ X₂
          (transpose ⟨2, ![K₁, M]⟩ [1, 0] (extractStridedSlice ⟨2, ![M, K₁]⟩ ![0, 0] W hs₁) ht₁)
          (transpose ⟨2, ![K₂, M]⟩ [1, 0] (extractStridedSlice ⟨2, ![M, K₂]⟩ ![0, K₁] W hs₂) ht₂) b (ix2 p q) := by
  rw [layer_ix2]
  refine (maximumf_apply _ _ _).trans (congrArg₂ max ?_ ?_)
  · refine (addf_apply _ _ _).trans (congrArg₂ (· + ·) ?_ (Affine.bias_rows_apply b h1 h2 p q))
    refine (PlainDot.dotGeneral_apply_ix2 prec sched _ _ p q).trans ?_
    rw [Fin.sum_univ_add]
    refine congrArg₂ (· + ·) (Finset.sum_congr rfl fun k _ => ?_) (Finset.sum_congr rfl fun k _ => ?_)
    · refine congrArg₂ (· * ·) (concat_cols_left X₁ X₂ hcat p k) ?_
      refine (transpose_ix2 W htr (Fin.castAdd K₂ k) q).trans ?_
      refine ((transpose_cols_ix2 0 W hs₁ ht₁ k q (by have := k.isLt; omega)).trans ?_).symm
      exact congrArg W (congrArg (ix2 q) (Fin.ext (Nat.zero_add _)))
    · refine congrArg₂ (· * ·) (concat_cols_right X₁ X₂ hcat p k) ?_
      refine (transpose_ix2 W htr (Fin.natAdd K₁ k) q).trans ?_
      exact (transpose_cols_ix2 K₁ W hs₂ ht₂ k q (by have := k.isLt; omega)).symm
  · exact broadcastInDim_apply _ h0 _ (ix2 p q) ix0 fun a => a.elim0

/-- The two spellings are one array. -/
theorem host_eq (prec : Option ContractPrecision) (sched : HostSchedule)
    (X₁ : FVec Ideal ⟨2, ![A, K₁]⟩ .f32) (X₂ : FVec Ideal ⟨2, ![A, K₂]⟩ .f32) (W : FVec Ideal ⟨2, ![M, K₁ + K₂]⟩ .f32)
    (b : FVec Ideal ⟨1, ![M]⟩ .f32)
    (hcat : Shape.Concatenates [(⟨2, ![A, K₁]⟩ : Shape), ⟨2, ![A, K₂]⟩] ⟨2, ![A, K₁ + K₂]⟩ 1)
    (htr : (⟨2, ![M, K₁ + K₂]⟩ : Shape).Transposes [1, 0] ⟨2, ![K₁ + K₂, M]⟩)
    (hs₁ : (⟨2, ![M, K₁ + K₂]⟩ : Shape).Slices ![0, 0] ⟨2, ![M, K₁]⟩)
    (ht₁ : (⟨2, ![M, K₁]⟩ : Shape).Transposes [1, 0] ⟨2, ![K₁, M]⟩)
    (hs₂ : (⟨2, ![M, K₁ + K₂]⟩ : Shape).Slices ![0, K₁] ⟨2, ![M, K₂]⟩)
    (ht₂ : (⟨2, ![M, K₂]⟩ : Shape).Transposes [1, 0] ⟨2, ![K₂, M]⟩)
    (h1 : (⟨1, ![M]⟩ : Shape).BroadcastsInDim ⟨2, ![1, M]⟩ ![1])
    (h2 : (⟨2, ![1, M]⟩ : Shape).BroadcastsInDim ⟨2, ![A, M]⟩ ![0, 1])
    (h0 : (⟨0, ![]⟩ : Shape).BroadcastsInDim ⟨2, ![A, M]⟩ ![]) :
    maximumf
        (addf
          (FloatOps.dotGeneral (DotDims.plain A (K₁ + K₂) M) prec sched
            (concatenate ⟨2, ![A, K₁ + K₂]⟩ 1 [⟨⟨2, ![A, K₁]⟩, X₁⟩, ⟨⟨2, ![A, K₂]⟩, X₂⟩] hcat)
            (transpose ⟨2, ![K₁ + K₂, M]⟩ [1, 0] W htr))
          (broadcastInDim ⟨2, ![A, M]⟩ ![0, 1] h2 (broadcastInDim ⟨2, ![1, M]⟩ ![1] h1 b)))
        (broadcastInDim ⟨2, ![A, M]⟩ ![] h0 (constant (F := Ideal) ⟨0, ![]⟩ .f32 0x00000000#32))
      = layer X₁ X₂
          (transpose ⟨2, ![K₁, M]⟩ [1, 0] (extractStridedSlice ⟨2, ![M, K₁]⟩ ![0, 0] W hs₁) ht₁)
          (transpose ⟨2, ![K₂, M]⟩ [1, 0] (extractStridedSlice ⟨2, ![M, K₂]⟩ ![0, K₁] W hs₂) ht₂) b := by
  funext i
  obtain ⟨p, q, rfl⟩ : ∃ (p : Fin A) (q : Fin M), i = ix2 p q := ⟨i 0, i 1, eq_ix2 i⟩
  exact host_apply prec sched X₁ X₂ W b hcat htr hs₁ ht₁ hs₂ ht₂ h1 h2 h0 p q

end Idealize.ShloMosaic.SplitLayer
-- ==== Proof.Messages.lean ====
/-
  The first launch: the message layer, row block by row block. The grid has 200 points; point `t` loads rows
  `8000·t … 8000·t + 7999` of the gathered source features (128 columns) and of the edge features (32 columns), the two
  transposed column ranges of the message weights whole and the bias whole, and writes back rows `8000·t …` of the
  messages. Each stored entry is the layer's entry on the loaded blocks, an entry of the layer depends on its own row only,
  and the 200 blocks tile the 1,600,000 rows: so the messages array ends as the layer on the whole arrays.
-/
import proofs.«155092_j70231305224638_1_alg».proof.Proof.Gen.KernelIdeal.Frame
import proofs.«155092_j70231305224638_1_alg».proof.Proof.LibSplitLayer
import Idealize.ShloMosaic.Lib.Pipeline.Value
import Idealize.ShloMosaic.Lib.ValueIdx

set_option maxRecDepth 16384

noncomputable section

namespace Cert.KernelIdeal.Messages

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The messages: the layer on the gathered source features, the edge features, the two weight ranges and the bias, as the first launch finds them. -/
abbrev messages (c : Dev nD) : S1600000x128.Idx → Elt Ideal .f32 :=
  SplitLayer.layer (V c main_v10) (V c main_arg2) (V c main_v12) (V c main_v14) (V c main_arg4)

/-- The body's stored value, entry by entry, is the layer on the blocks it loaded. -/
theorem payload_apply (x0 : Vec Ideal S8000x128 .f32) (x1 : Vec Ideal S8000x32 .f32) (x2 : Vec Ideal S128x128 .f32)
    (x3 : Vec Ideal S32x128 .f32) (x4 : Vec Ideal S128 .f32) (p : Fin 8000) (q : Fin 128) :
    k0_pay1 (F := Ideal) x0 x1 x2 x3 x4 (ix2 p q) = SplitLayer.layer x0 x1 x2 x3 x4 (ix2 p q) := by
  unfold k0_pay1
  simp only [shapeCast_self]
  exact SplitLayer.body_apply none x0 x1 x2 x3 x4 _ _ _ p q

/-- The printed index maps, decided over the grid: at point `t` the two row-block operands and the result are at block
    row `t`, and the two weight ranges and the bias are the whole arrays. -/
theorem index_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row `p` of the first part's block at point `t` is row `8000·t + p` of its array. -/
theorem block_part1 (c : Dev nD) (t : Fin cfg0.N) (p : Fin 8000) (k : Fin 128) (h : t.val * 8000 + p.val < 1600000) :
    iblk0 V c 0 t (ix2 p k) = V c main_v10 (ix2 (⟨t.val * 8000 + p.val, h⟩ : Fin 1600000) k) := by
  obtain ⟨e0, e1, -⟩ := index_facts t
  show V c main_v10 (((cfg0.win 0).blk t).view.emb (ix2 p k)) = _
  refine congrArg (V c main_v10) ?_
  funext a; apply Fin.ext
  match a with
  | ⟨0, _⟩ => show win0_0.index t (0 : Fin 2) * 8000 + 1 * p.val = t.val * 8000 + p.val; omega
  | ⟨1, _⟩ => show win0_0.index t (1 : Fin 2) * 128 + 1 * k.val = k.val; omega

/-- Row `p` of the second part's block at point `t` is row `8000·t + p` of its array. -/
theorem block_part2 (c : Dev nD) (t : Fin cfg0.N) (p : Fin 8000) (k : Fin 32) (h : t.val * 8000 + p.val < 1600000) :
    iblk0 V c 1 t (ix2 p k) = V c main_arg2 (ix2 (⟨t.val * 8000 + p.val, h⟩ : Fin 1600000) k) := by
  obtain ⟨-, -, e2, e3, -⟩ := index_facts t
  show V c main_arg2 (((cfg0.win 1).blk t).view.emb (ix2 p k)) = _
  refine congrArg (V c main_arg2) ?_
  funext a; apply Fin.ext
  match a with
  | ⟨0, _⟩ => show win0_1.index t (0 : Fin 2) * 8000 + 1 * p.val = t.val * 8000 + p.val; omega
  | ⟨1, _⟩ => show win0_1.index t (1 : Fin 2) * 32 + 1 * k.val = k.val; omega

/-- The first weight range's block is the whole array at every point. -/
theorem block_weights1 (c : Dev nD) (t : Fin cfg0.N) (k : Fin 128) (q : Fin 128) :
    iblk0 V c 2 t (ix2 k q) = V c main_v12 (ix2 k q) := by
  obtain ⟨-, -, -, -, e4, e5, -⟩ := index_facts t
  show V c main_v12 (((cfg0.win 2).blk t).view.emb (ix2 k q)) = _
  refine congrArg (V c main_v12) ?_
  funext a; apply Fin.ext
  match a with
  | ⟨0, _⟩ => show win0_2.index t (0 : Fin 2) * 128 + 1 * k.val = k.val; omega
  | ⟨1, _⟩ => show win0_2.index t (1 : Fin 2) * 128 + 1 * q.val = q.val; omega

/-- The second weight range's block is the whole array at every point. -/
theorem block_weights2 (c : Dev nD) (t : Fin cfg0.N) (k : Fin 32) (q : Fin 128) :
    iblk0 V c 3 t (ix2 k q) = V c main_v14 (ix2 k q) := by
  obtain ⟨-, -, -, -, -, -, e6, e7, -⟩ := index_facts t
  show V c main_v14 (((cfg0.win 3).blk t).view.emb (ix2 k q)) = _
  refine congrArg (V c main_v14) ?_
  funext a; apply Fin.ext
  match a with
  | ⟨0, _⟩ => show win0_3.index t (0 : Fin 2) * 32 + 1 * k.val = k.val; omega
  | ⟨1, _⟩ => show win0_3.index t (1 : Fin 2) * 128 + 1 * q.val = q.val; omega

/-- The bias's block is the whole vector at every point. -/
theorem block_bias (c : Dev nD) (t : Fin cfg0.N) (q : Fin 128) :
    iblk0 V c 4 t (ix1 q) = V c main_arg4 (ix1 q) := by
  obtain ⟨-, -, -, -, -, -, -, -, e8, -⟩ := index_facts t
  show V c main_arg4 (((cfg0.win 4).blk t).view.emb (ix1 q)) = _
  refine congrArg (V c main_arg4) ?_
  funext a; apply Fin.ext
  match a with
  | ⟨0, _⟩ => show win0_4.index t (0 : Fin 1) * 128 + 1 * q.val = q.val; omega

/-- What point `t` writes back is block `t` of the layer on the whole arrays as the launch finds them. -/
theorem flushed_eq (c : Dev nD) (t : Fin cfg0.N) :
    (dat0 V c).flushed 5 t = ((cfg0.win 5).blk t).view.read (Elt Ideal) (messages V c) := by
  show (cfg0.win 5).cut (grid0.coords t) ((dat0 V c).after 5 t) = _
  rw [after0_5]
  unfold out0_5
  rw [View.canon_unit_zero zero2]
  simp only [View.ld_unit_zero (S := S8000x128) zero2, View.ld_unit_zero (S := S8000x32) zero2, View.ld_unit_zero (S := S128x128) zero2, View.ld_unit_zero (S := S32x128) zero2, View.ld_unit_zero (S := S128) zero1]
  obtain ⟨-, -, -, -, -, -, -, -, -, e9, e10⟩ := index_facts t
  have ht : t.val < 200 := lt_of_lt_of_eq t.isLt N_0
  funext y
  obtain ⟨p, q, rfl⟩ : ∃ (p : Fin 8000) (q : Fin 128), y = ix2 p q := ⟨y 0, y 1, eq_ix2 y⟩
  have hp := p.isLt
  have hr : t.val * 8000 + p.val < 1600000 := by omega
  have hemb : ((cfg0.win 5).blk t).view.emb (ix2 p q) = ix2 (⟨t.val * 8000 + p.val, hr⟩ : Fin 1600000) q := by
    funext a; apply Fin.ext
    match a with
    | ⟨0, _⟩ => show win0_5.index t (0 : Fin 2) * 8000 + 1 * p.val = t.val * 8000 + p.val; omega
    | ⟨1, _⟩ => show win0_5.index t (1 : Fin 2) * 128 + 1 * q.val = q.val; omega
  show k0_pay1 (iblk0 V c 0 t) (iblk0 V c 1 t) (iblk0 V c 2 t) (iblk0 V c 3 t) (iblk0 V c 4 t) (ix2 p q)
      = messages V c (((cfg0.win 5).blk t).view.emb (ix2 p q))
  rw [hemb]
  refine (payload_apply (iblk0 V c 0 t) (iblk0 V c 1 t) (iblk0 V c 2 t) (iblk0 V c 3 t) (iblk0 V c 4 t) p q).trans ?_
  exact SplitLayer.layer_entry_congr (V c main_v10) (V c main_arg2) (V c main_v12) (V c main_v14) (V c main_arg4)
    (iblk0 V c 0 t) (iblk0 V c 1 t) (iblk0 V c 2 t) (iblk0 V c 3 t) (iblk0 V c 4 t) p ⟨_, hr⟩ q
    (fun k => block_part1 V c t p k hr) (fun k => block_part2 V c t p k hr)
    (fun k => block_weights1 V c t k q) (fun k => block_weights2 V c t k q) (block_bias V c t q)

/-- An index of the result array is in point `t`'s block iff each coordinate is in the block's range on its axis. -/
theorem mem_block (t : Fin cfg0.N) (i : S1600000x128.Idx) :
    i ∈ ((cfg0.win 5).blk t).view.set ↔ ∀ a : Fin 2, win0_5.index t a * S8000x128.size a ≤ (i a).val ∧ (i a).val < win0_5.index t a * S8000x128.size a + S8000x128.size a := by
  show i ∈ ((View.whole main_v15).slice (win0_5.rect t)).set ↔ _
  rw [View.set_slice_whole, Rect.mem_set_unit]
  exact Iff.rfl

/-- Row `r` of the result is written back by point `r / 8000`: the blocks tile the array. -/
theorem covered (i : S1600000x128.Idx) :
    ∃ t : Fin cfg0.N, (cfg0.win 5).flush t = true ∧ i ∈ ((cfg0.win 5).blk t).view.set := by
  have h0 : (i 0).val < 1600000 := (i 0).isLt
  have h1 : (i 1).val < 128 := (i 1).isLt
  have hN : grid0.N = 200 := N_0
  have hlt : (i 0).val / 8000 < grid0.N := by rw [hN]; omega
  obtain ⟨-, -, -, -, -, -, -, -, -, e9, e10⟩ := index_facts (⟨(i 0).val / 8000, hlt⟩ : Fin cfg0.N)
  have e9' : win0_5.index (⟨(i 0).val / 8000, hlt⟩ : Fin cfg0.N) (0 : Fin 2) = (i 0).val / 8000 := e9
  refine ⟨⟨(i 0).val / 8000, hlt⟩, flush0_5 _, ?_⟩
  rw [mem_block]
  intro a
  match a with
  | ⟨0, _⟩ =>
    show win0_5.index _ (0 : Fin 2) * 8000 ≤ (i 0).val ∧ (i 0).val < win0_5.index _ (0 : Fin 2) * 8000 + 8000
    omega
  | ⟨1, _⟩ =>
    show win0_5.index _ (1 : Fin 2) * 128 ≤ (i 1).val ∧ (i 1).val < win0_5.index _ (1 : Fin 2) * 128 + 128
    omega

/-- The result array after the launch: the layer on the whole arrays as the launch finds them. -/
theorem final (c : Dev nD) : (dat0 V c).arrAt 5 cfg0.N = messages V c :=
  (dat0 V c).arrAt_eq_of_cover 5 (messages V c) (fun t _ => flushed_eq V c t) covered

end Cert.KernelIdeal.Messages

end
-- ==== Proof.Output.lean ====
/-
  The second launch: the output layer, row block by row block. The grid has 20 points; point `t` loads rows
  `5000·t … 5000·t + 4999` of the node features and of the aggregated messages (128 columns each), the two transposed
  column ranges of the output weights whole and the bias whole, and writes back rows `5000·t …` of the result. Each
  stored entry is the layer's entry on the loaded blocks, an entry of the layer depends on its own row only, and the 20
  blocks tile the 100,000 rows: so the result array ends as the layer on the whole arrays.
-/
import proofs.«155092_j70231305224638_1_alg».proof.Proof.Gen.KernelIdeal.Frame
import proofs.«155092_j70231305224638_1_alg».proof.Proof.LibSplitLayer
import Idealize.ShloMosaic.Lib.Pipeline.Value
import Idealize.ShloMosaic.Lib.ValueIdx

set_option maxRecDepth 16384

noncomputable section

namespace Cert.KernelIdeal.Output

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The updated node features: the layer on the node features, the aggregated messages, the two weight ranges and the bias, as the second launch finds them. -/
abbrev updated (c : Dev nD) : S100000x128.Idx → Elt Ideal .f32 :=
  SplitLayer.layer (V c main_arg0) (V c main_v18) (V c main_v20) (V c main_v22) (V c main_arg6)

/-- The body's stored value, entry by entry, is the layer on the blocks it loaded. -/
theorem payload_apply (x0 : Vec Ideal S5000x128 .f32) (x1 : Vec Ideal S5000x128 .f32) (x2 : Vec Ideal S128x128 .f32)
    (x3 : Vec Ideal S128x128 .f32) (x4 : Vec Ideal S128 .f32) (p : Fin 5000) (q : Fin 128) :
    k1_pay1 (F := Ideal) x0 x1 x2 x3 x4 (ix2 p q) = SplitLayer.layer x0 x1 x2 x3 x4 (ix2 p q) := by
  unfold k1_pay1
  simp only [shapeCast_self]
  exact SplitLayer.body_apply none x0 x1 x2 x3 x4 _ _ _ p q

/-- The printed index maps, decided over the grid: at point `t` the two row-block operands and the result are at block
    row `t`, and the two weight ranges and the bias are the whole arrays. -/
theorem index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Row `p` of the first part's block at point `t` is row `5000·t + p` of its array. -/
theorem block_part1 (c : Dev nD) (t : Fin cfg1.N) (p : Fin 5000) (k : Fin 128) (h : t.val * 5000 + p.val < 100000) :
    iblk1 V c 0 t (ix2 p k) = V c main_arg0 (ix2 (⟨t.val * 5000 + p.val, h⟩ : Fin 100000) k) := by
  obtain ⟨e0, e1, -⟩ := index_facts t
  show V c main_arg0 (((cfg1.win 0).blk t).view.emb (ix2 p k)) = _
  refine congrArg (V c main_arg0) ?_
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

/-- Row `p` of the second part's block at point `t` is row `5000·t + p` of its array. -/
theorem block_part2 (c : Dev nD) (t : Fin cfg1.N) (p : Fin 5000) (k : Fin 128) (h : t.val * 5000 + p.val < 100000) :
    iblk1 V c 1 t (ix2 p k) = V c main_v18 (ix2 (⟨t.val * 5000 + p.val, h⟩ : Fin 100000) k) := by
  obtain ⟨-, -, e2, e3, -⟩ := index_facts t
  show V c main_v18 (((cfg1.win 1).blk t).view.emb (ix2 p k)) = _
  refine congrArg (V c main_v18) ?_
  funext a; apply Fin.ext
  match a with
  | ⟨0, _⟩ => show win1_1.index t (0 : Fin 2) * 5000 + 1 * p.val = t.val * 5000 + p.val; omega
  | ⟨1, _⟩ => show win1_1.index t (1 : Fin 2) * 128 + 1 * k.val = k.val; omega

/-- The first weight range's block is the whole array at every point. -/
theorem block_weights1 (c : Dev nD) (t : Fin cfg1.N) (k : Fin 128) (q : Fin 128) :
    iblk1 V c 2 t (ix2 k q) = V c main_v20 (ix2 k q) := by
  obtain ⟨-, -, -, -, e4, e5, -⟩ := index_facts t
  show V c main_v20 (((cfg1.win 2).blk t).view.emb (ix2 k q)) = _
  refine congrArg (V c main_v20) ?_
  funext a; apply Fin.ext
  match a with
  | ⟨0, _⟩ => show win1_2.index t (0 : Fin 2) * 128 + 1 * k.val = k.val; omega
  | ⟨1, _⟩ => show win1_2.index t (1 : Fin 2) * 128 + 1 * q.val = q.val; omega

/-- The second weight range's block is the whole array at every point. -/
theorem block_weights2 (c : Dev nD) (t : Fin cfg1.N) (k : Fin 128) (q : Fin 128) :
    iblk1 V c 3 t (ix2 k q) = V c main_v22 (ix2 k q) := by
  obtain ⟨-, -, -, -, -, -, e6, e7, -⟩ := index_facts t
  show V c main_v22 (((cfg1.win 3).blk t).view.emb (ix2 k q)) = _
  refine congrArg (V c main_v22) ?_
  funext a; apply Fin.ext
  match a with
  | ⟨0, _⟩ => show win1_3.index t (0 : Fin 2) * 128 + 1 * k.val = k.val; omega
  | ⟨1, _⟩ => show win1_3.index t (1 : Fin 2) * 128 + 1 * q.val = q.val; omega

/-- The bias's block is the whole vector at every point. -/
theorem block_bias (c : Dev nD) (t : Fin cfg1.N) (q : Fin 128) :
    iblk1 V c 4 t (ix1 q) = V c main_arg6 (ix1 q) := by
  obtain ⟨-, -, -, -, -, -, -, -, e8, -⟩ := index_facts t
  show V c main_arg6 (((cfg1.win 4).blk t).view.emb (ix1 q)) = _
  refine congrArg (V c main_arg6) ?_
  funext a; apply Fin.ext
  match a with
  | ⟨0, _⟩ => show win1_4.index t (0 : Fin 1) * 128 + 1 * q.val = q.val; omega

/-- What point `t` writes back is block `t` of the layer on the whole arrays as the launch finds them. -/
theorem flushed_eq (c : Dev nD) (t : Fin cfg1.N) :
    (dat1 V c).flushed 5 t = ((cfg1.win 5).blk t).view.read (Elt Ideal) (updated V c) := by
  show (cfg1.win 5).cut (grid1.coords t) ((dat1 V c).after 5 t) = _
  rw [after1_5]
  unfold out1_5
  rw [View.canon_unit_zero zero2]
  simp only [View.ld_unit_zero (S := S5000x128) zero2, View.ld_unit_zero (S := S128x128) zero2, View.ld_unit_zero (S := S128) zero1]
  obtain ⟨-, -, -, -, -, -, -, -, -, e9, e10⟩ := index_facts t
  have ht : t.val < 20 := lt_of_lt_of_eq t.isLt N_1
  funext y
  obtain ⟨p, q, rfl⟩ : ∃ (p : Fin 5000) (q : Fin 128), y = ix2 p q := ⟨y 0, y 1, eq_ix2 y⟩
  have hp := p.isLt
  have hr : t.val * 5000 + p.val < 100000 := by omega
  have hemb : ((cfg1.win 5).blk t).view.emb (ix2 p q) = ix2 (⟨t.val * 5000 + p.val, hr⟩ : Fin 100000) q := by
    funext a; apply Fin.ext
    match a with
    | ⟨0, _⟩ => show win1_5.index t (0 : Fin 2) * 5000 + 1 * p.val = t.val * 5000 + p.val; omega
    | ⟨1, _⟩ => show win1_5.index t (1 : Fin 2) * 128 + 1 * q.val = q.val; omega
  show k1_pay1 (iblk1 V c 0 t) (iblk1 V c 1 t) (iblk1 V c 2 t) (iblk1 V c 3 t) (iblk1 V c 4 t) (ix2 p q)
      = updated V c (((cfg1.win 5).blk t).view.emb (ix2 p q))
  rw [hemb]
  refine (payload_apply (iblk1 V c 0 t) (iblk1 V c 1 t) (iblk1 V c 2 t) (iblk1 V c 3 t) (iblk1 V c 4 t) p q).trans ?_
  exact SplitLayer.layer_entry_congr (V c main_arg0) (V c main_v18) (V c main_v20) (V c main_v22) (V c main_arg6)
    (iblk1 V c 0 t) (iblk1 V c 1 t) (iblk1 V c 2 t) (iblk1 V c 3 t) (iblk1 V c 4 t) p ⟨_, hr⟩ q
    (fun k => block_part1 V c t p k hr) (fun k => block_part2 V c t p k hr)
    (fun k => block_weights1 V c t k q) (fun k => block_weights2 V c t k q) (block_bias V c t q)

/-- An index of the result array is in point `t`'s block iff each coordinate is in the block's range on its axis. -/
theorem mem_block (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v23).slice (win1_5.rect t)).set ↔ _
  rw [View.set_slice_whole, Rect.mem_set_unit]
  exact Iff.rfl

/-- Row `r` of the result is written back by point `r / 5000`: the blocks tile the array. -/
theorem covered (i : S100000x128.Idx) :
    ∃ t : Fin cfg1.N, (cfg1.win 5).flush t = true ∧ i ∈ ((cfg1.win 5).blk t).view.set := by
  have h0 : (i 0).val < 100000 := (i 0).isLt
  have h1 : (i 1).val < 128 := (i 1).isLt
  have hN : grid1.N = 20 := N_1
  have hlt : (i 0).val / 5000 < grid1.N := by rw [hN]; omega
  obtain ⟨-, -, -, -, -, -, -, -, -, e9, e10⟩ := index_facts (⟨(i 0).val / 5000, hlt⟩ : Fin cfg1.N)
  have e9' : win1_5.index (⟨(i 0).val / 5000, hlt⟩ : Fin cfg1.N) (0 : Fin 2) = (i 0).val / 5000 := e9
  refine ⟨⟨(i 0).val / 5000, hlt⟩, flush1_5 _, ?_⟩
  rw [mem_block]
  intro a
  match a with
  | ⟨0, _⟩ =>
    show win1_5.index _ (0 : Fin 2) * 5000 ≤ (i 0).val ∧ (i 0).val < win1_5.index _ (0 : Fin 2) * 5000 + 5000
    omega
  | ⟨1, _⟩ =>
    show win1_5.index _ (1 : Fin 2) * 128 ≤ (i 1).val ∧ (i 1).val < win1_5.index _ (1 : Fin 2) * 128 + 128
    omega

/-- The result array after the launch: the layer on the whole arrays as the launch finds them. -/
theorem final (c : Dev nD) : (dat1 V c).arrAt 5 cfg1.N = updated V c :=
  (dat1 V c).arrAt_eq_of_cover 5 (updated V c) (fun t _ => flushed_eq V c t) covered

end Cert.KernelIdeal.Output

end
-- ==== Proof.KernelValue.lean ====
/-
  The value of the idealized kernel, as one function of its seven arguments.

  With `X` the node features, `(s, d)` the two rows of the edge list, `E` the edge features, `W`, `b` the message layer's
  weights and bias and `U`, `u` the output layer's:
    * `s'` is `s` with a negative entry moved up by the number of nodes (the host's index normalisation), and the gathered
      source features are the host's gather of `X` at `s'`;
    * the messages are the layer `max (G·W[:, :128]ᵀ + E·W[:, 128:]ᵀ + b) 0`, row by row (first launch);
    * the aggregated messages are the host's scatter-add of the messages into a zero array at `d`;
    * the result is the layer `max (X·U[:, :128]ᵀ + A·U[:, 128:]ᵀ + u) 0`, row by row (second launch).
  Each launch's result array is the layer on the arrays the launch finds (the two launch modules); what it finds is what the
  host operations before it computed from the launch memory, read back through the fold of the program's stretches.
-/
import proofs.«155092_j70231305224638_1_alg».proof.Proof.KernelRun
import proofs.«155092_j70231305224638_1_alg».proof.Proof.Messages
import proofs.«155092_j70231305224638_1_alg».proof.Proof.Output
import Idealize.ShloMosaic.Lib.StableHlo.Run

set_option maxRecDepth 16384

noncomputable section

namespace Cert.KernelIdeal.Spec

open Idealize.ShloMosaic Idealize.ShloMosaic.TcCoe Idealize.SL.Sem Idealize.ShloMosaic.StableHlo
open Cert.KernelIdeal Cert.KernelIdeal.Gen

/-! ## The function -/

/-- Row 0 of the edge list, as a vector: the source node of each edge. -/
def sources (x1 : (⟨S2x1600000, .i32⟩ : BufTy).Contents (Elt Ideal)) : (⟨S1600000, .i32⟩ : BufTy).Contents (Elt Ideal) :=
  shapeCast S1600000 (extractStridedSlice S1x1600000 ![0, 0] x1 slices_S2x1600000_S1x1600000_0_0) shapeCasts_S1x1600000_S1600000

/-- Row 1 of the edge list, as a vector: the target node of each edge. -/
def targets (x1 : (⟨S2x1600000, .i32⟩ : BufTy).Contents (Elt Ideal)) : (⟨S1600000, .i32⟩ : BufTy).Contents (Elt Ideal) :=
  shapeCast S1600000 (extractStridedSlice S1x1600000 ![1, 0] x1 slices_S2x1600000_S1x1600000_1_0) shapeCasts_S1x1600000_S1600000

/-- The gather's index column: a negative source moved up by the number of nodes. -/
def sourceIndex (x1 : (⟨S2x1600000, .i32⟩ : BufTy).Contents (Elt Ideal)) : (⟨S1600000x1, .i32⟩ : BufTy).Contents (Elt Ideal) :=
  broadcastInDim S1600000x1 ![0] bcast_S1600000_S1600000x1_0
    (select (cmpi .slt (sources x1) (broadcastInDim S1600000 ![] bcast_S_S1600000 (constantI S_ 32 0#32)))
      (addi (sources x1) (broadcastInDim S1600000 ![] bcast_S_S1600000 (constantI S_ 32 100000#32))) (sources x1))

/-- The scatter's index column. -/
def targetIndex (x1 : (⟨S2x1600000, .i32⟩ : BufTy).Contents (Elt Ideal)) : (⟨S1600000x1, .i32⟩ : BufTy).Contents (Elt Ideal) :=
  broadcastInDim S1600000x1 ![0] bcast_S1600000_S1600000x1_0 (targets x1)

/-- The messages, one row per edge. -/
def messages (x0 : (⟨S100000x128, .f32⟩ : BufTy).Contents (Elt Ideal)) (x1 : (⟨S2x1600000, .i32⟩ : BufTy).Contents (Elt Ideal)) (x2 : (⟨S1600000x32, .f32⟩ : BufTy).Contents (Elt Ideal))
    (x3 : (⟨S128x160, .f32⟩ : BufTy).Contents (Elt Ideal)) (x4 : (⟨S128, .f32⟩ : BufTy).Contents (Elt Ideal)) : (⟨S1600000x128, .f32⟩ : BufTy).Contents (Elt Ideal) :=
  SplitLayer.layer (Host.gather gather_S100000x128_S1600000x1_S1600000x128_1_0_n_n_0_1_1128 x0 (sourceIndex x1)) x2
    (transpose S128x128 [1, 0] (extractStridedSlice S128x128 ![0, 0] x3 slices_S128x160_S128x128_0_0) transposes_S128x128_S128x128_1_0)
    (transpose S32x128 [1, 0] (extractStridedSlice S128x32 ![0, 128] x3 slices_S128x160_S128x32_0_128) transposes_S128x32_S32x128_1_0) x4

/-- The messages added up at their target nodes, one row per node. -/
def aggregated (x0 : (⟨S100000x128, .f32⟩ : BufTy).Contents (Elt Ideal)) (x1 : (⟨S2x1600000, .i32⟩ : BufTy).Contents (Elt Ideal)) (x2 : (⟨S1600000x32, .f32⟩ : BufTy).Contents (Elt Ideal))
    (x3 : (⟨S128x160, .f32⟩ : BufTy).Contents (Elt Ideal)) (x4 : (⟨S128, .f32⟩ : BufTy).Contents (Elt Ideal)) : (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32)) (targetIndex x1) (messages x0 x1 x2 x3 x4)

/-- The updated node features, one row per node. -/
def updated (x0 : (⟨S100000x128, .f32⟩ : BufTy).Contents (Elt Ideal)) (x1 : (⟨S2x1600000, .i32⟩ : BufTy).Contents (Elt Ideal)) (x2 : (⟨S1600000x32, .f32⟩ : BufTy).Contents (Elt Ideal))
    (x3 : (⟨S128x160, .f32⟩ : BufTy).Contents (Elt Ideal)) (x4 : (⟨S128, .f32⟩ : BufTy).Contents (Elt Ideal))
    (x5 : (⟨S128x256, .f32⟩ : BufTy).Contents (Elt Ideal)) (x6 : (⟨S128, .f32⟩ : BufTy).Contents (Elt Ideal)) : (⟨S100000x128, .f32⟩ : BufTy).Contents (Elt Ideal) :=
  SplitLayer.layer x0 (aggregated x0 x1 x2 x3 x4)
    (transpose S128x128 [1, 0] (extractStridedSlice S128x128 ![0, 0] x5 slices_S128x256_S128x128_0_0) transposes_S128x128_S128x128_1_0)
    (transpose S128x128 [1, 0] (extractStridedSlice S128x128 ![0, 128] x5 slices_S128x256_S128x128_0_128) transposes_S128x128_S128x128_1_0) x6

/-! ## What the first launch finds -/

variable (m : (ℓ : Loc nD τ sig) → Buf (Elt Ideal) ℓ) (ρ : Dev nD → PrngReg)

theorem first_gathered (c : Dev nD) : V1 m ρ c main_v10
    = Host.gather gather_S100000x128_S1600000x1_S1600000x128_1_0_n_n_0_1_1128 (m ((c : Thread nD τ).loc main_arg0)) (sourceIndex (m ((c : Thread nD τ).loc main_arg1))) := by
  show StableHlo.after hostOps0 (W0 m ρ c) (Proc.devRef .tc main_v10) = _
  after_results <;> rfl

theorem first_edges (c : Dev nD) : V1 m ρ c main_arg2 = (m ((c : Thread nD τ).loc main_arg2)) := by
  show StableHlo.after hostOps0 (W0 m ρ c) (Proc.devRef .tc main_arg2) = _
  after_results <;> rfl

theorem first_weights1 (c : Dev nD) : V1 m ρ c main_v12
    = transpose S128x128 [1, 0] (extractStridedSlice S128x128 ![0, 0] (m ((c : Thread nD τ).loc main_arg3)) slices_S128x160_S128x128_0_0) transposes_S128x128_S128x128_1_0 := by
  show StableHlo.after hostOps0 (W0 m ρ c) (Proc.devRef .tc main_v12) = _
  after_results <;> rfl

theorem first_weights2 (c : Dev nD) : V1 m ρ c main_v14
    = transpose S32x128 [1, 0] (extractStridedSlice S128x32 ![0, 128] (m ((c : Thread nD τ).loc main_arg3)) slices_S128x160_S128x32_0_128) transposes_S128x32_S32x128_1_0 := by
  show StableHlo.after hostOps0 (W0 m ρ c) (Proc.devRef .tc main_v14) = _
  after_results <;> rfl

theorem first_bias (c : Dev nD) : V1 m ρ c main_arg4 = (m ((c : Thread nD τ).loc main_arg4)) := by
  show StableHlo.after hostOps0 (W0 m ρ c) (Proc.devRef .tc main_arg4) = _
  after_results <;> rfl

/-- The messages array after the first launch is the messages of the arguments. -/
theorem messages_eq (c : Dev nD) : Messages.messages (V1 m ρ) c = messages (m ((c : Thread nD τ).loc main_arg0)) (m ((c : Thread nD τ).loc main_arg1)) (m ((c : Thread nD τ).loc main_arg2)) (m ((c : Thread nD τ).loc main_arg3)) (m ((c : Thread nD τ).loc main_arg4)) := by
  show SplitLayer.layer (V1 m ρ c main_v10) (V1 m ρ c main_arg2) (V1 m ρ c main_v12) (V1 m ρ c main_v14) (V1 m ρ c main_arg4) = _
  rw [first_gathered m ρ c, first_edges m ρ c, first_weights1 m ρ c, first_weights2 m ρ c, first_bias m ρ c]
  rfl

/-! ## What the second launch finds -/

/-- A buffer that neither the first stretch of host operations nor the first launch writes holds its launch contents
    after both. -/
theorem second_nodes (c : Dev nD) : V3 m ρ c main_arg0 = (m ((c : Thread nD τ).loc main_arg0)) := by
  show StableHlo.after hostOps1 (W2 m ρ c) (Proc.devRef .tc main_arg0) = _
  after_results
  refine (W2_of_ne m ρ c main_arg0 (by decide)).trans ?_
  show StableHlo.after hostOps0 (W0 m ρ c) (Proc.devRef .tc main_arg0) = _
  after_results <;> rfl

theorem second_bias (c : Dev nD) : V3 m ρ c main_arg6 = (m ((c : Thread nD τ).loc main_arg6)) := by
  show StableHlo.after hostOps1 (W2 m ρ c) (Proc.devRef .tc main_arg6) = _
  after_results
  refine (W2_of_ne m ρ c main_arg6 (by decide)).trans ?_
  show StableHlo.after hostOps0 (W0 m ρ c) (Proc.devRef .tc main_arg6) = _
  after_results <;> rfl

theorem between_weights (c : Dev nD) : W2 m ρ c (Proc.devRef .tc main_arg5) = (m ((c : Thread nD τ).loc main_arg5)) := by
  refine (W2_of_ne m ρ c main_arg5 (by decide)).trans ?_
  show StableHlo.after hostOps0 (W0 m ρ c) (Proc.devRef .tc main_arg5) = _
  after_results <;> rfl

theorem between_targets (c : Dev nD) : W2 m ρ c (Proc.devRef .tc main_v3) = targets (m ((c : Thread nD τ).loc main_arg1)) := by
  refine (W2_of_ne m ρ c main_v3 (by decide)).trans ?_
  show StableHlo.after hostOps0 (W0 m ρ c) (Proc.devRef .tc main_v3) = _
  after_results <;> rfl

/-- Between the launches the messages buffer holds what the first launch's write-backs left. -/
theorem between_messages (c : Dev nD) : W2 m ρ c (Proc.devRef .tc main_v15) = messages (m ((c : Thread nD τ).loc main_arg0)) (m ((c : Thread nD τ).loc main_arg1)) (m ((c : Thread nD τ).loc main_arg2)) (m ((c : Thread nD τ).loc main_arg3)) (m ((c : Thread nD τ).loc main_arg4)) :=
  (W2_arr m ρ c 5).trans ((Messages.final (V1 m ρ) c).trans (messages_eq m ρ c))

theorem second_weights1 (c : Dev nD) : V3 m ρ c main_v20
    = transpose S128x128 [1, 0] (extractStridedSlice S128x128 ![0, 0] (m ((c : Thread nD τ).loc main_arg5)) slices_S128x256_S128x128_0_0) transposes_S128x128_S128x128_1_0 := by
  show StableHlo.after hostOps1 (W2 m ρ c) (Proc.devRef .tc main_v20) = _
  after_results
  rw [between_weights m ρ c]

theorem second_weights2 (c : Dev nD) : V3 m ρ c main_v22
    = transpose S128x128 [1, 0] (extractStridedSlice S128x128 ![0, 128] (m ((c : Thread nD τ).loc main_arg5)) slices_S128x256_S128x128_0_128) transposes_S128x128_S128x128_1_0 := by
  show StableHlo.after hostOps1 (W2 m ρ c) (Proc.devRef .tc main_v22) = _
  after_results
  rw [between_weights m ρ c]

theorem second_aggregated (c : Dev nD) : V3 m ρ c main_v18 = aggregated (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v18) = _
  after_results
  rw [between_messages m ρ c, between_targets m ρ c]
  rfl

/-- The result array after the second launch is the updated node features of the arguments. -/
theorem updated_eq (c : Dev nD) : Output.updated (V3 m ρ) c = updated (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show SplitLayer.layer (V3 m ρ c main_arg0) (V3 m ρ c main_v18) (V3 m ρ c main_v20) (V3 m ρ c main_v22) (V3 m ρ c main_arg6) = _
  rw [second_nodes m ρ c, second_aggregated m ρ c, second_weights1 m ρ c, second_weights2 m ρ c, second_bias m ρ c]
  rfl

/-! ## The run -/

/-- At the last boundary the result buffer holds the updated node features of the arguments. -/
theorem result_eq (c : Dev nD) : W4 m ρ c (Proc.devRef .tc main_v23) = updated (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W4_arr m ρ c 5).trans ((Output.final (V3 m ρ) c).trans (updated_eq m ρ c))

/-- Every weakly fair execution of the idealized kernel terminates, nothing faulting, with the result at the updated node
    features of the arguments and the arguments as launched. -/
theorem run : θ_run defs (onTc (τ := τ) (main (F := Ideal))) ⟨m, fun _ => 0, ρ⟩ (fun r => ∀ c : Dev nD,
      r.2.mem ((c.tc : Thread nD τ).loc main_v23) = updated (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩) (Named.run m ρ)

end Cert.KernelIdeal.Spec

end
-- ==== Proof.Reference.lean ====
/-
  The reference computes the same function. Its message stage lays the gathered source features and the edge features side
  by side and multiplies the 160-wide rows by the transposed weight matrix in one product; its output stage does the same
  with the node features and the aggregated messages, 256 wide. A sum over the 160 (or 256) columns is the sum over the
  first 128 plus the sum over the rest, so each stage is the layer on the two parts with the weights in two transposed
  column ranges; the gather before the first stage and the scatter-add between the stages are the same host operations on
  both sides, applied to the same arrays.
-/
import proofs.«155092_j70231305224638_1_alg».proof.Proof.KernelValue
import proofs.«155092_j70231305224638_1_alg».proof.Proof.Gen.ReferenceIdeal.Read

set_option maxRecDepth 16384

noncomputable section

namespace Cert.ReferenceIdeal.RefValue

open Idealize.ShloMosaic
open Cert.ReferenceIdeal Cert.ReferenceIdeal.Gen Cert.ReferenceIdeal.Read

/-- The reference's messages are the kernel's. -/
theorem messages_eq (x0 : (⟨S100000x128, .f32⟩ : BufTy).Contents (Elt Ideal)) (x1 : (⟨S2x1600000, .i32⟩ : BufTy).Contents (Elt Ideal)) (x2 : (⟨S1600000x32, .f32⟩ : BufTy).Contents (Elt Ideal))
    (x3 : (⟨S128x160, .f32⟩ : BufTy).Contents (Elt Ideal)) (x4 : (⟨S128, .f32⟩ : BufTy).Contents (Elt Ideal)) :
    val_main_v17 (F := Ideal) x0 x1 x2 x3 x4 = Cert.KernelIdeal.Spec.messages x0 x1 x2 x3 x4 := by
  unfold val_main_v17 val_main_v16 val_main_v13 val_main_v11 val_main_v12 val_main_v15 val_main_v14 val_main_call0_v0
    val_main_call0_cst
  refine (SplitLayer.host_eq (A := 1600000) (K₁ := 128) (K₂ := 32) (M := 128) none .single
    (val_main_v10 (F := Ideal) x0 x1) x2 x3 x4 concatenates_S1600000x128_S1600000x32_S1600000x160_d1
    transposes_S128x160_S160x128_1_0 Cert.KernelIdeal.Facts₀.slices_S128x160_S128x128_0_0 Cert.KernelIdeal.Facts₀.transposes_S128x128_S128x128_1_0
    Cert.KernelIdeal.Facts₀.slices_S128x160_S128x32_0_128 Cert.KernelIdeal.Facts₀.transposes_S128x32_S32x128_1_0 bcast_S128_S1x128_1
    bcast_S1x128_S1600000x128_0_1 bcast_S_S1600000x128).trans ?_
  rfl

/-- The reference's result is the kernel's. -/
theorem updated_eq (x0 : (⟨S100000x128, .f32⟩ : BufTy).Contents (Elt Ideal)) (x1 : (⟨S2x1600000, .i32⟩ : BufTy).Contents (Elt Ideal)) (x2 : (⟨S1600000x32, .f32⟩ : BufTy).Contents (Elt Ideal))
    (x3 : (⟨S128x160, .f32⟩ : BufTy).Contents (Elt Ideal)) (x4 : (⟨S128, .f32⟩ : BufTy).Contents (Elt Ideal))
    (x5 : (⟨S128x256, .f32⟩ : BufTy).Contents (Elt Ideal)) (x6 : (⟨S128, .f32⟩ : BufTy).Contents (Elt Ideal)) :
    val_main_v27 (F := Ideal) x0 x1 x2 x3 x4 x5 x6 = Cert.KernelIdeal.Spec.updated x0 x1 x2 x3 x4 x5 x6 := by
  unfold val_main_v27 val_main_v26 val_main_v23 val_main_v21 val_main_v22 val_main_v25 val_main_v24 val_main_call1_v0
    val_main_call1_cst
  refine (SplitLayer.host_eq (A := 100000) (K₁ := 128) (K₂ := 128) (M := 128) none .single
    x0 (val_main_v20 (F := Ideal) x0 x1 x2 x3 x4) x5 x6 concatenates_S100000x128_S100000x128_S100000x256_d1
    transposes_S128x256_S256x128_1_0 Cert.KernelIdeal.Facts₀.slices_S128x256_S128x128_0_0 Cert.KernelIdeal.Facts₀.transposes_S128x128_S128x128_1_0
    Cert.KernelIdeal.Facts₀.slices_S128x256_S128x128_0_128 Cert.KernelIdeal.Facts₀.transposes_S128x128_S128x128_1_0 bcast_S128_S1x128_1
    bcast_S1x128_S100000x128_0_1 bcast_S_S100000x128).trans ?_
  unfold val_main_v20
  rw [messages_eq]
  rfl

end Cert.ReferenceIdeal.RefValue

end
-- ==== Proof.lean ====
/-
  A message-passing layer on a graph of 100,000 nodes and 1,600,000 edges, as a two-launch kernel and as plain array
  code: the two compute one function of their arguments over the extended reals.

  Both gather each edge's source-node features, apply the message layer `max (·W ᵀ + b) 0` to the 160-wide row made of the
  gathered features (128) and the edge's own features (32), add the messages up at their target nodes into a zero array,
  and apply the output layer `max (·U ᵀ + u) 0` to the 256-wide row made of a node's features (128) and its aggregated
  messages (128). The index computation, the gather and the scatter-add are the same host operations in both programs.
  The kernel never forms the wide rows: each launch multiplies the two parts of a row block by the two column ranges of the
  weight matrix and adds the products, where the reference multiplies the joined row by the whole matrix. Over the
  extended reals the rounding of the matrix unit's operands is the identity and a finite sum over `128 + 32` (or
  `128 + 128`) positions is the sum over the first part plus the sum over the second in every commutative monoid, so
  the two spellings of a layer agree entry by entry, infinite entries included: the finiteness of the inputs is not used.

  The frames of the two kernel programs are the generated ones, the reference's is its generated run with the result
  dropped, and the idealization rewrote nothing.
-/
import proofs.«155092_j70231305224638_1_alg».proof.Defs
import proofs.«155092_j70231305224638_1_alg».proof.Proof.Gen.Kernel
import proofs.«155092_j70231305224638_1_alg».proof.Proof.Gen.Kernel.Skeleton
import proofs.«155092_j70231305224638_1_alg».proof.Proof.Gen.Kernel.Launch
import proofs.«155092_j70231305224638_1_alg».proof.Proof.Gen.Kernel.Points
import proofs.«155092_j70231305224638_1_alg».proof.Proof.Gen.Kernel.Frame
import proofs.«155092_j70231305224638_1_alg».proof.Proof.Gen.KernelIdeal
import proofs.«155092_j70231305224638_1_alg».proof.Proof.Gen.KernelIdeal.Skeleton
import proofs.«155092_j70231305224638_1_alg».proof.Proof.Gen.KernelIdeal.Launch
import proofs.«155092_j70231305224638_1_alg».proof.Proof.Gen.KernelIdeal.Points
import proofs.«155092_j70231305224638_1_alg».proof.Proof.Gen.KernelIdeal.Frame
import proofs.«155092_j70231305224638_1_alg».proof.Proof.Gen.ReferenceIdeal
import proofs.«155092_j70231305224638_1_alg».proof.Proof.Gen.Pre_finite_inputs
import proofs.«155092_j70231305224638_1_alg».proof.Proof.Gen.ReferenceIdeal.Run
import proofs.«155092_j70231305224638_1_alg».proof.Proof.Gen.ReferenceIdeal.Read
import proofs.«155092_j70231305224638_1_alg».proof.Proof.KernelValue
import proofs.«155092_j70231305224638_1_alg».proof.Proof.Reference
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result at the updated node features of the arguments: the kernel by its two launches read
    back through the host operations between them, the reference by its run read as two layers on rows in two parts. -/
theorem algebraic : Cert.algebraic_KernelIdeal_ReferenceIdeal := by
  intro m ρ m' ρ' _ hagree
  refine ⟨_, Cert.KernelIdeal.Spec.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v27_eq, Cert.ReferenceIdeal.RefValue.updated_eq, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
